-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S2048x1024 : Shape := ⟨2, ![2048, 1024]⟩
abbrev S1x2048 : Shape := ⟨2, ![1, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S1x2048 .f32) (main_arg8 : FVec F S1x2048 .f32) (main_arg9 : FVec F S1x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  main_v48

def fn_part1 {F : FTy → Type} [FloatOps F] (main_arg4 : FVec F S2048x1024 .f32) (main_arg5 : FVec F S2048x1024 .f32) (main_arg6 : FVec F S1x2048 .f32) (main_arg7 : FVec F S1x2048 .f32) (main_arg8 : FVec F S1x2048 .f32) (main_arg9 : FVec F S1x2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x2048 .f32) (main_arg2 : FVec F S2048x1024 .f32) (main_arg3 : FVec F S2048x1024 .f32) (main_arg4 : FVec F S2048x1024 .f32) (main_arg5 : FVec F S2048x1024 .f32) (main_arg6 : FVec F S1x2048 .f32) (main_arg7 : FVec F S1x2048 .f32) (main_arg8 : FVec F S1x2048 .f32) (main_arg9 : FVec F S1x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S8192x2048 : Shape := ⟨2, ![8192, 2048]⟩
abbrev S2048x1024 : Shape := ⟨2, ![2048, 1024]⟩
abbrev S1x2048 : Shape := ⟨2, ![1, 2048]⟩
abbrev S1024x1024 : Shape := ⟨2, ![1024, 1024]⟩
abbrev S1x1024 : Shape := ⟨2, ![1, 1024]⟩
abbrev S1024x4096 : Shape := ⟨2, ![1024, 4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩
abbrev S256x3072 : Shape := ⟨2, ![256, 3072]⟩

abbrev nBuf : Space → Nat
  | .hbm => 42
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1024x4096, .bf16⟩
  | .hbm, ⟨39, _⟩ => ⟨S1024x4096, .bf16⟩
  | .hbm, ⟨40, _⟩ => ⟨S1x4096, .f32⟩
  | .hbm, ⟨41, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S1024x4096, .bf16⟩
  | .local _ .vmem, ⟨5, _⟩ => ⟨S1024x4096, .bf16⟩
  | .local _ .vmem, ⟨6, _⟩ => ⟨S1x4096, .f32⟩
  | .local _ .vmem, ⟨7, _⟩ => ⟨S256x2048, .f32⟩
  | .local _ .vmem, ⟨8, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2048x1024_S1024x1024_0_0 : S2048x1024.Slices ![0, 0] S1024x1024
  bitsLt_bf16_f32 : FTy.bits .bf16 < FTy.bits .f32
  slices_S2048x1024_S1024x1024_1024_0 : S2048x1024.Slices ![1024, 0] S1024x1024
  slices_S1x2048_S1x1024_0_0 : S1x2048.Slices ![0, 0] S1x1024
  slices_S1x2048_S1x1024_0_1024 : S1x2048.Slices ![0, 1024] S1x1024
  concatenates_S1024x1024_S1024x1024_S1024x1024_S1024x1024_S1024x4096_d1 : Shape.Concatenates [S1024x1024, S1024x1024, S1024x1024, S1024x1024] S1024x4096 1
  concatenates_S1x1024_S1x1024_S1x1024_S1x1024_S1x4096_d1 : Shape.Concatenates [S1x1024, S1x1024, S1x1024, S1x1024] S1x4096 1
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  slices_S256x2048_o0_0_S256x1024 : S256x2048.Slices ![0, 0] S256x1024
  slices_S256x2048_o0_1024_S256x1024 : S256x2048.Slices ![0, 1024] S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x3072 : S256x4096.Slices ![0, 0] S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  slices_S256x4096_o0_3072_S256x1024 : S256x4096.Slices ![0, 3072] S256x1024
  inb_S256x2048_S256x1024_0_0 : ∀ a, (![0, 0] : Fin 2 → Nat) a + S256x1024.size a ≤ S256x2048.size a
  inb_S256x2048_S256x1024_0_1024 : ∀ a, (![0, 1024] : Fin 2 → Nat) a + S256x1024.size a ≤ S256x2048.size a
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S2048x1024 : Shape := ⟨2, ![2048, 1024]⟩
abbrev S1x2048 : Shape := ⟨2, ![1, 2048]⟩
abbrev S1024x1024 : Shape := ⟨2, ![1024, 1024]⟩
abbrev S1x1024 : Shape := ⟨2, ![1, 1024]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S1024x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1024x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S1024x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S1024x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1024x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S1024x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_cst_4 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]

class Facts₀ : Prop where
  slices_S8192x2048_S8192x1024_0_0 : S8192x2048.Slices ![0, 0] S8192x1024
  slices_S8192x2048_S8192x1024_0_1024 : S8192x2048.Slices ![0, 1024] S8192x1024
  slices_S2048x1024_S1024x1024_0_0 : S2048x1024.Slices ![0, 0] S1024x1024
  slices_S1x2048_S1x1024_0_0 : S1x2048.Slices ![0, 0] S1x1024
  bcast_S1x1024_S8192x1024_0_1 : S1x1024.BroadcastsInDim S8192x1024 (![0, 1] : Fin 2 → Fin S8192x1024.rank)
  slices_S2048x1024_S1024x1024_1024_0 : S2048x1024.Slices ![1024, 0] S1024x1024
  slices_S1x2048_S1x1024_0_1024 : S1x2048.Slices ![0, 1024] S1x1024
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.KernelRun.lean ====
/-
  The run of `Kernel`'s @main as one pipelined region behind a stretch of host operations, and what that
  run leaves in memory.

  @main first builds, on the host, the three arrays the kernel keeps resident: for each of the four gates the top
  half and the bottom half of its weight matrix, narrowed and laid side by side along the columns (two arrays of
  1024 x 4096), and the four folded biases `b[:, :1024] + b[:, 1024:]` laid side by side (1 x 4096). None of these
  host operations writes an argument array. Then the region visits 32 grid points; point `t` stages rows
  `256 t … 256 t + 255` of `x` and of `hidden_state`, the three resident arrays whole, and writes back rows
  `256 t … 256 t + 255` of the result.

  At a point the body loads its five input buffers whole, and stores twice into its output buffer: columns
  `0 … 1023` (the new hidden state) and columns `1024 … 2047` (the new cell state). The two stores tile the
  buffer, so what the buffer holds afterwards does not depend on what it held before: it is `stored` below, a
  function of the five input blocks only. (The body also loads each half of the output buffer just before
  overwriting it; the loaded values are never used.)

  From this: the region's proof data (`pdata`), the body's triple (`body_triple`), the obligation at every point,
  the whole run (`run_main`) with every array of the pipeline named in its post, and the frame property (`frame`):
  the run terminates without a fault and the ten argument arrays end as they started. Everything is stated for
  any float instance `F`.
-/
import proofs.«143200_j50148038148717_2_alg».proof.Proof.Gen.Kernel.Launch
import proofs.«143200_j50148038148717_2_alg».proof.Proof.Gen.Kernel.Skeleton
import proofs.«143200_j50148038148717_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretch before the region -/

/-- What core `c`'s buffers hold when the region is entered: the launch memory after the 31 host operations. -/
abbrev entry (c : Dev nD) (b : Ref sig .tc) : Buf (Elt F) ((c : Thread nD τ).loc b) :=
  StableHlo.after hostOps0 (fun b => m (c, b)) b

/-- The host operations allocate nothing. -/
theorem host_allocates_nothing : (hostOps0 : List (HloOp τ sig (Elt F))).Forall fun op => op.fresh = ∅ := by
  simp only [List.Forall]; repeat' constructor

/-- @main is that stretch followed by the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub host_allocates_nothing main_chain

/-- Each host operation writes its own result buffer only, and no result buffer is an argument: an argument is
    found at the region's entry as launched. -/
local macro "arg_untouched" : tactic => `(tactic| (
  refine StableHlo.after_of_forall_not_mem _ _ (List.forall_iff_forall_mem.mp ?_)
  simp only [hostOps0, List.Forall, StableHlo.unary_writes, StableHlo.binary_writes, StableHlo.nary_writes, Finset.mem_singleton]
  repeat' apply And.intro
  all_goals exact StableHlo.devRef_ne_of_ne (by decide)))

theorem entry_arg0 (c : Dev nD) : entry m c main_arg0 = m ((c : Thread nD τ).loc main_arg0) := by arg_untouched
theorem entry_arg1 (c : Dev nD) : entry m c main_arg1 = m ((c : Thread nD τ).loc main_arg1) := by arg_untouched
theorem entry_arg2 (c : Dev nD) : entry m c main_arg2 = m ((c : Thread nD τ).loc main_arg2) := by arg_untouched
theorem entry_arg3 (c : Dev nD) : entry m c main_arg3 = m ((c : Thread nD τ).loc main_arg3) := by arg_untouched
theorem entry_arg4 (c : Dev nD) : entry m c main_arg4 = m ((c : Thread nD τ).loc main_arg4) := by arg_untouched
theorem entry_arg5 (c : Dev nD) : entry m c main_arg5 = m ((c : Thread nD τ).loc main_arg5) := by arg_untouched
theorem entry_arg6 (c : Dev nD) : entry m c main_arg6 = m ((c : Thread nD τ).loc main_arg6) := by arg_untouched
theorem entry_arg7 (c : Dev nD) : entry m c main_arg7 = m ((c : Thread nD τ).loc main_arg7) := by arg_untouched
theorem entry_arg8 (c : Dev nD) : entry m c main_arg8 = m ((c : Thread nD τ).loc main_arg8) := by arg_untouched
theorem entry_arg9 (c : Dev nD) : entry m c main_arg9 = m ((c : Thread nD τ).loc main_arg9) := by arg_untouched

/-! ## The blocks the windows stage -/

/-- Window `w`'s block at grid point `t`, cut from its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds the window's block at every point — also at a point where the pipeline
    did not fetch it, because then the block index has not moved since the last fetch (the three resident windows
    are fetched at the first point only) — for any proof data over the entry contents whose body leaves the block
    in place. One statement per input window. -/
theorem input0_holds_block {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t := by
  refine (dat.before_in_eq_fetched 0 rfl (fun _ => rfl) (fun _ _ _ => rfl) (fun t => ?_) t d).trans ?_
  · rw [hafter]; unfold Dat.blockOf blockAt; rw [hA]; try rfl
  · unfold Dat.fetched Dat.blockOf blockAt; rw [hA]; try rfl
theorem input1_holds_block {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t := by
  refine (dat.before_in_eq_fetched 1 rfl (fun _ => rfl) (fun _ _ _ => rfl) (fun t => ?_) t d).trans ?_
  · rw [hafter]; unfold Dat.blockOf blockAt; rw [hA]; try rfl
  · unfold Dat.fetched Dat.blockOf blockAt; rw [hA]; try rfl
theorem input2_holds_block {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t := by
  refine (dat.before_in_eq_fetched 2 rfl (fun _ => rfl) (fun _ _ _ => rfl) (fun t => ?_) t d).trans ?_
  · rw [hafter]; unfold Dat.blockOf blockAt; rw [hA]; try rfl
  · unfold Dat.fetched Dat.blockOf blockAt; rw [hA]; try rfl
theorem input3_holds_block {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t := by
  refine (dat.before_in_eq_fetched 3 rfl (fun _ => rfl) (fun _ _ _ => rfl) (fun t => ?_) t d).trans ?_
  · rw [hafter]; unfold Dat.blockOf blockAt; rw [hA]; try rfl
  · unfold Dat.fetched Dat.blockOf blockAt; rw [hA]; try rfl
theorem input4_holds_block {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t := by
  refine (dat.before_in_eq_fetched 4 rfl (fun _ => rfl) (fun _ _ _ => rfl) (fun t => ?_) t d).trans ?_
  · rw [hafter]; unfold Dat.blockOf blockAt; rw [hA]; try rfl
  · unfold Dat.fetched Dat.blockOf blockAt; rw [hA]; try rfl

/-! ## The frame property from a run that names the arrays -/

/-- In a final state where every array of the pipeline holds what the proof data computes, and every other unscoped
    buffer what the region found, the ten arguments are as launched: `x` and `hidden_state` are staged inputs (an
    input array is never written back), the eight weight and bias arguments are staged by no window, and the host
    stretch wrote none of the ten. -/
theorem args_kept (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
    ⟨((h c).1 0).trans (((dats 0 c).arrAt_in 0 rfl _).trans ((hA c 0).trans (entry_arg0 m c))),
     ((h c).1 1).trans (((dats 0 c).arrAt_in 1 rfl _).trans ((hA c 1).trans (entry_arg1 m c))),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).2 main_arg4 (Pipeline.mem_restRefs_of main_arg4 (by decide) (by decide))).trans (entry_arg4 m c),
     ((h c).2 main_arg5 (Pipeline.mem_restRefs_of main_arg5 (by decide) (by decide))).trans (entry_arg5 m c),
     ((h c).2 main_arg6 (Pipeline.mem_restRefs_of main_arg6 (by decide) (by decide))).trans (entry_arg6 m c),
     ((h c).2 main_arg7 (Pipeline.mem_restRefs_of main_arg7 (by decide) (by decide))).trans (entry_arg7 m c),
     ((h c).2 main_arg8 (Pipeline.mem_restRefs_of main_arg8 (by decide) (by decide))).trans (entry_arg8 m c),
     ((h c).2 main_arg9 (Pipeline.mem_restRefs_of main_arg9 (by decide) (by decide))).trans (entry_arg9 m c)⟩

/-- So a run of @main to such states is a run that leaves the ten arguments as launched. -/
theorem frame_from_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m dats hA r h c) h

/-! ## What the body stores -/

/-- The rectangles the body reads and writes: each input buffer whole, and the two halves of the output buffer. -/
abbrev wholeX : Rect S256x1024 := Rect.unit (s := S256x1024) ![0, 0] S256x1024.size inb_S256x1024_S256x1024_0_0
abbrev wholeHC : Rect S256x2048 := Rect.unit (s := S256x2048) ![0, 0] S256x2048.size inb_S256x2048_S256x2048_0_0
abbrev wholeW : Rect S1024x4096 := Rect.unit (s := S1024x4096) ![0, 0] S1024x4096.size inb_S1024x4096_S1024x4096_0_0
abbrev wholeB : Rect S1x4096 := Rect.unit (s := S1x4096) ![0, 0] S1x4096.size inb_S1x4096_S1x4096_0_0
abbrev leftHalf : Rect S256x2048 := Rect.unit (s := S256x2048) ![0, 0] S256x1024.size inb_S256x2048_S256x1024_0_0
abbrev rightHalf : Rect S256x2048 := Rect.unit (s := S256x2048) ![0, 1024] S256x1024.size inb_S256x2048_S256x1024_0_1024

/-- The output buffer after the body, from the five input blocks: the new cell state over the right half (the later
    store, listed first) and the new hidden state over the left half. -/
def stored (x : Vec F S256x1024 .f32) (hc : Vec F S256x2048 .f32) (wx wh : Vec F S1024x4096 .bf16) (b : Vec F S1x4096 .f32) :
    Vec F S256x2048 .f32 :=
  View.canon [⟨rightHalf, k0_pay3 (View.ld x wholeX) (View.ld hc wholeHC) (View.ld wx wholeW) (View.ld wh wholeW) (View.ld b wholeB)⟩,
              ⟨leftHalf, k0_pay4 (View.ld x wholeX) (View.ld hc wholeHC) (View.ld wx wholeW) (View.ld wh wholeW) (View.ld b wholeB)⟩]

/-- The two halves tile the output buffer: every index lies in one of them. -/
theorem halves_cover (pR pL : Vec F S256x1024 .f32) (y : S256x2048.Idx) :
    ∃ pc ∈ ([⟨rightHalf, pR⟩, ⟨leftHalf, pL⟩] : List (View.Piece (Elt F) S256x2048 .f32)), y ∈ pc.1.set :=
  View.cover_of_tiled [⟨rightHalf, pR⟩, ⟨leftHalf, pL⟩] S256x1024.size (by rfl) y

/-! ## The body's triple -/

set_option maxHeartbeats 1000000 in
/-- On whole staging memrefs — the inputs' holding `x`, `hc`, `wx`, `wh`, `b`, the output's holding anything — the body
    runs without a fault to a state where the inputs' hold what they held and the output's holds `stored` of them. -/
theorem body_triple (c : Dev nD) (E : Set ℕ) (i : grid0.Coords)
    (a1 : Memref sig .tc .vmem S256x1024 .f32) (h1 : a1.IsWhole) (a2 : Memref sig .tc .vmem S256x2048 .f32) (h2 : a2.IsWhole)
    (a3 : Memref sig .tc .vmem S1024x4096 .bf16) (h3 : a3.IsWhole) (a4 : Memref sig .tc .vmem S1024x4096 .bf16) (h4 : a4.IsWhole)
    (a5 : Memref sig .tc .vmem S1x4096 .f32) (h5 : a5.IsWhole) (a6 : Memref sig .tc .vmem S256x2048 .f32) (h6 : a6.IsWhole)
    (x : Vec F S256x1024 .f32) (hc : Vec F S256x2048 .f32) (wx wh : Vec F S1024x4096 .bf16) (b : Vec F S1x4096 .f32)
    (K : PUnit → sProp 𝕄) :
    iprop(owns (c : Thread nD τ) a1 fullShare x ∗ owns (c : Thread nD τ) a2 fullShare hc ∗ owns (c : Thread nD τ) a3 fullShare wx
        ∗ owns (c : Thread nD τ) a4 fullShare wh ∗ owns (c : Thread nD τ) a5 fullShare b ∗ (∃ d, owns (c : Thread nD τ) a6 fullShare d)
        ∗ (iprop(owns (c : Thread nD τ) a1 fullShare x ∗ owns (c : Thread nD τ) a2 fullShare hc ∗ owns (c : Thread nD τ) a3 fullShare wx
            ∗ owns (c : Thread nD τ) a4 fullShare wh ∗ owns (c : Thread nD τ) a5 fullShare b
            ∗ owns (c : Thread nD τ) a6 fullShare (stored x hc wx wh b)) -∗ K ⟨⟩))
      ⊢ wp frame (wpE (defs₀ (F := F)) Variants.none c none) E (cc0__lstm_kernel i a1 h1 a2 h2 a3 h3 a4 h4 a5 h5 a6 h6) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (halves_cover _ _)

/-! ## The region's proof data -/

/-- On core `c`: the arrays are the entry contents; after the body at point `t` each input buffer holds its block and
    the output buffer `stored` of the five blocks; the body uses nothing else (the invariant is the untouched rest);
    full shares, nothing owed. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => stored (blockAt m c 0 t) (blockAt m c 1 t) (blockAt m c 2 t) (blockAt m c 3 t) (blockAt m c 4 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_in0 (c : Dev nD) (t : Fin cfg0.N) : (pdata m 0 c).after 0 t = blockAt m c 0 t := by dsimp only [pdata]
theorem after_in1 (c : Dev nD) (t : Fin cfg0.N) : (pdata m 0 c).after 1 t = blockAt m c 1 t := by dsimp only [pdata]
theorem after_in2 (c : Dev nD) (t : Fin cfg0.N) : (pdata m 0 c).after 2 t = blockAt m c 2 t := by dsimp only [pdata]
theorem after_in3 (c : Dev nD) (t : Fin cfg0.N) : (pdata m 0 c).after 3 t = blockAt m c 3 t := by dsimp only [pdata]
theorem after_in4 (c : Dev nD) (t : Fin cfg0.N) : (pdata m 0 c).after 4 t = blockAt m c 4 t := by dsimp only [pdata]
theorem after_out (c : Dev nD) (t : Fin cfg0.N) : (pdata m 0 c).after 5 t
    = stored (blockAt m c 0 t) (blockAt m c 1 t) (blockAt m c 2 t) (blockAt m c 3 t) (blockAt m c 4 t) := by dsimp only [pdata]

theorem before_in0 (c : Dev nD) (t : Fin cfg0.N) (d) : (pdata m 0 c).before 0 t d = blockAt m c 0 t :=
  input0_holds_block m (pdata m 0 c) (pdata_A m c 0) (after_in0 m c) t d
theorem before_in1 (c : Dev nD) (t : Fin cfg0.N) (d) : (pdata m 0 c).before 1 t d = blockAt m c 1 t :=
  input1_holds_block m (pdata m 0 c) (pdata_A m c 1) (after_in1 m c) t d
theorem before_in2 (c : Dev nD) (t : Fin cfg0.N) (d) : (pdata m 0 c).before 2 t d = blockAt m c 2 t :=
  input2_holds_block m (pdata m 0 c) (pdata_A m c 2) (after_in2 m c) t d
theorem before_in3 (c : Dev nD) (t : Fin cfg0.N) (d) : (pdata m 0 c).before 3 t d = blockAt m c 3 t :=
  input3_holds_block m (pdata m 0 c) (pdata_A m c 3) (after_in3 m c) t d
theorem before_in4 (c : Dev nD) (t : Fin cfg0.N) (d) : (pdata m 0 c).before 4 t d = blockAt m c 4 t :=
  input4_holds_block m (pdata m 0 c) (pdata_A m c 4) (after_in4 m c) t d

/-! ## The obligation at a grid point -/

/-- What the pipeline hands the body at point `t`, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d)))

/-- and what the body must hand back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t))

/-- At every point the input buffers hold their blocks, so the body's triple applies; the invariant and the core's
    debt are not touched. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_in0, before_in1, before_in2, before_in3, before_in4]
  rw [show (pdata m 0 c).Φ t.succ = (pdata m 0 c).Φ t.castSucc from rfl,
    show (pdata m 0 c).owesAt () t.succ = (pdata m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (pdata (F := F) m 0 c) (defs₀ (F := F)) Variants.none () Set.univ := fun t => by
  rw [bigSep_W0, bigSep_W0]
  exact body_at_point m c t

/-! ## The run, and the frame -/

set_option backward.isDefEq.respectTransparency.types false in
/-- From any memory with zero counters every weakly fair execution of @main terminates without a fault; at the end
    every array of the pipeline holds what the proof data computes (the result array: the entry contents overwritten,
    block by block, by `stored` at each point) and every other unscoped buffer what the region found. -/
theorem run_main : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entry m) (hmain := main_to_region m Variants.none) (hA := pdata_A m) (hΦ := fun _ _ => rfl)

/-- The run terminates without a fault and leaves the ten argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_from_run m ρ (pdata m) (pdata_A m) (run_main m ρ)

end Cert.Kernel.Lstm

end
-- ==== Proof.KernelIdealRun.lean ====
/-
  The run of `KernelIdeal`'s @main as one pipelined region behind a stretch of host operations, and what that
  run leaves in memory.

  @main first builds, on the host, the three arrays the kernel keeps resident: for each of the four gates the top
  half and the bottom half of its weight matrix, narrowed and laid side by side along the columns (two arrays of
  1024 x 4096), and the four folded biases `b[:, :1024] + b[:, 1024:]` laid side by side (1 x 4096). None of these
  host operations writes an argument array. Then the region visits 32 grid points; point `t` stages rows
  `256 t … 256 t + 255` of `x` and of `hidden_state`, the three resident arrays whole, and writes back rows
  `256 t … 256 t + 255` of the result.

  At a point the body loads its five input buffers whole, and stores twice into its output buffer: columns
  `0 … 1023` (the new hidden state) and columns `1024 … 2047` (the new cell state). The two stores tile the
  buffer, so what the buffer holds afterwards does not depend on what it held before: it is `stored` below, a
  function of the five input blocks only. (The body also loads each half of the output buffer just before
  overwriting it; the loaded values are never used.)

  From this: the region's proof data (`pdata`), the body's triple (`body_triple`), the obligation at every point,
  the whole run (`run_main`) with every array of the pipeline named in its post, and the frame property (`frame`):
  the run terminates without a fault and the ten argument arrays end as they started. Everything is stated for
  any float instance `F`.
-/
import proofs.«143200_j50148038148717_2_alg».proof.Proof.Gen.KernelIdeal.Launch
import proofs.«143200_j50148038148717_2_alg».proof.Proof.Gen.KernelIdeal.Skeleton
import proofs.«143200_j50148038148717_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretch before the region -/

/-- What core `c`'s buffers hold when the region is entered: the launch memory after the 31 host operations. -/
abbrev entry (c : Dev nD) (b : Ref sig .tc) : Buf (Elt F) ((c : Thread nD τ).loc b) :=
  StableHlo.after hostOps0 (fun b => m (c, b)) b

/-- The host operations allocate nothing. -/
theorem host_allocates_nothing : (hostOps0 : List (HloOp τ sig (Elt F))).Forall fun op => op.fresh = ∅ := by
  simp only [List.Forall]; repeat' constructor

/-- @main is that stretch followed by the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub host_allocates_nothing main_chain

/-- Each host operation writes its own result buffer only, and no result buffer is an argument: an argument is
    found at the region's entry as launched. -/
local macro "arg_untouched" : tactic => `(tactic| (
  refine StableHlo.after_of_forall_not_mem _ _ (List.forall_iff_forall_mem.mp ?_)
  simp only [hostOps0, List.Forall, StableHlo.unary_writes, StableHlo.binary_writes, StableHlo.nary_writes, Finset.mem_singleton]
  repeat' apply And.intro
  all_goals exact StableHlo.devRef_ne_of_ne (by decide)))

theorem entry_arg0 (c : Dev nD) : entry m c main_arg0 = m ((c : Thread nD τ).loc main_arg0) := by arg_untouched
theorem entry_arg1 (c : Dev nD) : entry m c main_arg1 = m ((c : Thread nD τ).loc main_arg1) := by arg_untouched
theorem entry_arg2 (c : Dev nD) : entry m c main_arg2 = m ((c : Thread nD τ).loc main_arg2) := by arg_untouched
theorem entry_arg3 (c : Dev nD) : entry m c main_arg3 = m ((c : Thread nD τ).loc main_arg3) := by arg_untouched
theorem entry_arg4 (c : Dev nD) : entry m c main_arg4 = m ((c : Thread nD τ).loc main_arg4) := by arg_untouched
theorem entry_arg5 (c : Dev nD) : entry m c main_arg5 = m ((c : Thread nD τ).loc main_arg5) := by arg_untouched
theorem entry_arg6 (c : Dev nD) : entry m c main_arg6 = m ((c : Thread nD τ).loc main_arg6) := by arg_untouched
theorem entry_arg7 (c : Dev nD) : entry m c main_arg7 = m ((c : Thread nD τ).loc main_arg7) := by arg_untouched
theorem entry_arg8 (c : Dev nD) : entry m c main_arg8 = m ((c : Thread nD τ).loc main_arg8) := by arg_untouched
theorem entry_arg9 (c : Dev nD) : entry m c main_arg9 = m ((c : Thread nD τ).loc main_arg9) := by arg_untouched

/-! ## The blocks the windows stage -/

/-- Window `w`'s block at grid point `t`, cut from its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds the window's block at every point — also at a point where the pipeline
    did not fetch it, because then the block index has not moved since the last fetch (the three resident windows
    are fetched at the first point only) — for any proof data over the entry contents whose body leaves the block
    in place. One statement per input window. -/
theorem input0_holds_block {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t := by
  refine (dat.before_in_eq_fetched 0 rfl (fun _ => rfl) (fun _ _ _ => rfl) (fun t => ?_) t d).trans ?_
  · rw [hafter]; unfold Dat.blockOf blockAt; rw [hA]; try rfl
  · unfold Dat.fetched Dat.blockOf blockAt; rw [hA]; try rfl
theorem input1_holds_block {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t := by
  refine (dat.before_in_eq_fetched 1 rfl (fun _ => rfl) (fun _ _ _ => rfl) (fun t => ?_) t d).trans ?_
  · rw [hafter]; unfold Dat.blockOf blockAt; rw [hA]; try rfl
  · unfold Dat.fetched Dat.blockOf blockAt; rw [hA]; try rfl
theorem input2_holds_block {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t := by
  refine (dat.before_in_eq_fetched 2 rfl (fun _ => rfl) (fun _ _ _ => rfl) (fun t => ?_) t d).trans ?_
  · rw [hafter]; unfold Dat.blockOf blockAt; rw [hA]; try rfl
  · unfold Dat.fetched Dat.blockOf blockAt; rw [hA]; try rfl
theorem input3_holds_block {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t := by
  refine (dat.before_in_eq_fetched 3 rfl (fun _ => rfl) (fun _ _ _ => rfl) (fun t => ?_) t d).trans ?_
  · rw [hafter]; unfold Dat.blockOf blockAt; rw [hA]; try rfl
  · unfold Dat.fetched Dat.blockOf blockAt; rw [hA]; try rfl
theorem input4_holds_block {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t := by
  refine (dat.before_in_eq_fetched 4 rfl (fun _ => rfl) (fun _ _ _ => rfl) (fun t => ?_) t d).trans ?_
  · rw [hafter]; unfold Dat.blockOf blockAt; rw [hA]; try rfl
  · unfold Dat.fetched Dat.blockOf blockAt; rw [hA]; try rfl

/-! ## The frame property from a run that names the arrays -/

/-- In a final state where every array of the pipeline holds what the proof data computes, and every other unscoped
    buffer what the region found, the ten arguments are as launched: `x` and `hidden_state` are staged inputs (an
    input array is never written back), the eight weight and bias arguments are staged by no window, and the host
    stretch wrote none of the ten. -/
theorem args_kept (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
    ⟨((h c).1 0).trans (((dats 0 c).arrAt_in 0 rfl _).trans ((hA c 0).trans (entry_arg0 m c))),
     ((h c).1 1).trans (((dats 0 c).arrAt_in 1 rfl _).trans ((hA c 1).trans (entry_arg1 m c))),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).2 main_arg4 (Pipeline.mem_restRefs_of main_arg4 (by decide) (by decide))).trans (entry_arg4 m c),
     ((h c).2 main_arg5 (Pipeline.mem_restRefs_of main_arg5 (by decide) (by decide))).trans (entry_arg5 m c),
     ((h c).2 main_arg6 (Pipeline.mem_restRefs_of main_arg6 (by decide) (by decide))).trans (entry_arg6 m c),
     ((h c).2 main_arg7 (Pipeline.mem_restRefs_of main_arg7 (by decide) (by decide))).trans (entry_arg7 m c),
     ((h c).2 main_arg8 (Pipeline.mem_restRefs_of main_arg8 (by decide) (by decide))).trans (entry_arg8 m c),
     ((h c).2 main_arg9 (Pipeline.mem_restRefs_of main_arg9 (by decide) (by decide))).trans (entry_arg9 m c)⟩

/-- So a run of @main to such states is a run that leaves the ten arguments as launched. -/
theorem frame_from_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m dats hA r h c) h

/-! ## What the body stores -/

/-- The rectangles the body reads and writes: each input buffer whole, and the two halves of the output buffer. -/
abbrev wholeX : Rect S256x1024 := Rect.unit (s := S256x1024) ![0, 0] S256x1024.size inb_S256x1024_S256x1024_0_0
abbrev wholeHC : Rect S256x2048 := Rect.unit (s := S256x2048) ![0, 0] S256x2048.size inb_S256x2048_S256x2048_0_0
abbrev wholeW : Rect S1024x4096 := Rect.unit (s := S1024x4096) ![0, 0] S1024x4096.size inb_S1024x4096_S1024x4096_0_0
abbrev wholeB : Rect S1x4096 := Rect.unit (s := S1x4096) ![0, 0] S1x4096.size inb_S1x4096_S1x4096_0_0
abbrev leftHalf : Rect S256x2048 := Rect.unit (s := S256x2048) ![0, 0] S256x1024.size inb_S256x2048_S256x1024_0_0
abbrev rightHalf : Rect S256x2048 := Rect.unit (s := S256x2048) ![0, 1024] S256x1024.size inb_S256x2048_S256x1024_0_1024

/-- The output buffer after the body, from the five input blocks: the new cell state over the right half (the later
    store, listed first) and the new hidden state over the left half. -/
def stored (x : Vec F S256x1024 .f32) (hc : Vec F S256x2048 .f32) (wx wh : Vec F S1024x4096 .bf16) (b : Vec F S1x4096 .f32) :
    Vec F S256x2048 .f32 :=
  View.canon [⟨rightHalf, k0_pay3 (View.ld x wholeX) (View.ld hc wholeHC) (View.ld wx wholeW) (View.ld wh wholeW) (View.ld b wholeB)⟩,
              ⟨leftHalf, k0_pay4 (View.ld x wholeX) (View.ld hc wholeHC) (View.ld wx wholeW) (View.ld wh wholeW) (View.ld b wholeB)⟩]

/-- The two halves tile the output buffer: every index lies in one of them. -/
theorem halves_cover (pR pL : Vec F S256x1024 .f32) (y : S256x2048.Idx) :
    ∃ pc ∈ ([⟨rightHalf, pR⟩, ⟨leftHalf, pL⟩] : List (View.Piece (Elt F) S256x2048 .f32)), y ∈ pc.1.set :=
  View.cover_of_tiled [⟨rightHalf, pR⟩, ⟨leftHalf, pL⟩] S256x1024.size (by rfl) y

/-! ## The body's triple -/

set_option maxHeartbeats 1000000 in
/-- On whole staging memrefs — the inputs' holding `x`, `hc`, `wx`, `wh`, `b`, the output's holding anything — the body
    runs without a fault to a state where the inputs' hold what they held and the output's holds `stored` of them. -/
theorem body_triple (c : Dev nD) (E : Set ℕ) (i : grid0.Coords)
    (a1 : Memref sig .tc .vmem S256x1024 .f32) (h1 : a1.IsWhole) (a2 : Memref sig .tc .vmem S256x2048 .f32) (h2 : a2.IsWhole)
    (a3 : Memref sig .tc .vmem S1024x4096 .bf16) (h3 : a3.IsWhole) (a4 : Memref sig .tc .vmem S1024x4096 .bf16) (h4 : a4.IsWhole)
    (a5 : Memref sig .tc .vmem S1x4096 .f32) (h5 : a5.IsWhole) (a6 : Memref sig .tc .vmem S256x2048 .f32) (h6 : a6.IsWhole)
    (x : Vec F S256x1024 .f32) (hc : Vec F S256x2048 .f32) (wx wh : Vec F S1024x4096 .bf16) (b : Vec F S1x4096 .f32)
    (K : PUnit → sProp 𝕄) :
    iprop(owns (c : Thread nD τ) a1 fullShare x ∗ owns (c : Thread nD τ) a2 fullShare hc ∗ owns (c : Thread nD τ) a3 fullShare wx
        ∗ owns (c : Thread nD τ) a4 fullShare wh ∗ owns (c : Thread nD τ) a5 fullShare b ∗ (∃ d, owns (c : Thread nD τ) a6 fullShare d)
        ∗ (iprop(owns (c : Thread nD τ) a1 fullShare x ∗ owns (c : Thread nD τ) a2 fullShare hc ∗ owns (c : Thread nD τ) a3 fullShare wx
            ∗ owns (c : Thread nD τ) a4 fullShare wh ∗ owns (c : Thread nD τ) a5 fullShare b
            ∗ owns (c : Thread nD τ) a6 fullShare (stored x hc wx wh b)) -∗ K ⟨⟩))
      ⊢ wp frame (wpE (defs₀ (F := F)) Variants.none c none) E (cc0__lstm_kernel i a1 h1 a2 h2 a3 h3 a4 h4 a5 h5 a6 h6) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (halves_cover _ _)

/-! ## The region's proof data -/

/-- On core `c`: the arrays are the entry contents; after the body at point `t` each input buffer holds its block and
    the output buffer `stored` of the five blocks; the body uses nothing else (the invariant is the untouched rest);
    full shares, nothing owed. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => stored (blockAt m c 0 t) (blockAt m c 1 t) (blockAt m c 2 t) (blockAt m c 3 t) (blockAt m c 4 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_in0 (c : Dev nD) (t : Fin cfg0.N) : (pdata m 0 c).after 0 t = blockAt m c 0 t := by dsimp only [pdata]
theorem after_in1 (c : Dev nD) (t : Fin cfg0.N) : (pdata m 0 c).after 1 t = blockAt m c 1 t := by dsimp only [pdata]
theorem after_in2 (c : Dev nD) (t : Fin cfg0.N) : (pdata m 0 c).after 2 t = blockAt m c 2 t := by dsimp only [pdata]
theorem after_in3 (c : Dev nD) (t : Fin cfg0.N) : (pdata m 0 c).after 3 t = blockAt m c 3 t := by dsimp only [pdata]
theorem after_in4 (c : Dev nD) (t : Fin cfg0.N) : (pdata m 0 c).after 4 t = blockAt m c 4 t := by dsimp only [pdata]
theorem after_out (c : Dev nD) (t : Fin cfg0.N) : (pdata m 0 c).after 5 t
    = stored (blockAt m c 0 t) (blockAt m c 1 t) (blockAt m c 2 t) (blockAt m c 3 t) (blockAt m c 4 t) := by dsimp only [pdata]

theorem before_in0 (c : Dev nD) (t : Fin cfg0.N) (d) : (pdata m 0 c).before 0 t d = blockAt m c 0 t :=
  input0_holds_block m (pdata m 0 c) (pdata_A m c 0) (after_in0 m c) t d
theorem before_in1 (c : Dev nD) (t : Fin cfg0.N) (d) : (pdata m 0 c).before 1 t d = blockAt m c 1 t :=
  input1_holds_block m (pdata m 0 c) (pdata_A m c 1) (after_in1 m c) t d
theorem before_in2 (c : Dev nD) (t : Fin cfg0.N) (d) : (pdata m 0 c).before 2 t d = blockAt m c 2 t :=
  input2_holds_block m (pdata m 0 c) (pdata_A m c 2) (after_in2 m c) t d
theorem before_in3 (c : Dev nD) (t : Fin cfg0.N) (d) : (pdata m 0 c).before 3 t d = blockAt m c 3 t :=
  input3_holds_block m (pdata m 0 c) (pdata_A m c 3) (after_in3 m c) t d
theorem before_in4 (c : Dev nD) (t : Fin cfg0.N) (d) : (pdata m 0 c).before 4 t d = blockAt m c 4 t :=
  input4_holds_block m (pdata m 0 c) (pdata_A m c 4) (after_in4 m c) t d

/-! ## The obligation at a grid point -/

/-- What the pipeline hands the body at point `t`, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d)))

/-- and what the body must hand back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t))

/-- At every point the input buffers hold their blocks, so the body's triple applies; the invariant and the core's
    debt are not touched. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_in0, before_in1, before_in2, before_in3, before_in4]
  rw [show (pdata m 0 c).Φ t.succ = (pdata m 0 c).Φ t.castSucc from rfl,
    show (pdata m 0 c).owesAt () t.succ = (pdata m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (pdata (F := F) m 0 c) (defs₀ (F := F)) Variants.none () Set.univ := fun t => by
  rw [bigSep_W0, bigSep_W0]
  exact body_at_point m c t

/-! ## The run, and the frame -/

set_option backward.isDefEq.respectTransparency.types false in
/-- From any memory with zero counters every weakly fair execution of @main terminates without a fault; at the end
    every array of the pipeline holds what the proof data computes (the result array: the entry contents overwritten,
    block by block, by `stored` at each point) and every other unscoped buffer what the region found. -/
theorem run_main : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entry m) (hmain := main_to_region m Variants.none) (hA := pdata_A m) (hΦ := fun _ _ => rfl)

/-- The run terminates without a fault and leaves the ten argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_from_run m ρ (pdata m) (pdata_A m) (run_main m ρ)

end Cert.KernelIdeal.Lstm

end
-- ==== Proof.Spec.lean ====
/-
  The LSTM cell both programs compute, as plain functions on the extended reals.

  One row of the batch and one hidden column at a time the step is a function of five numbers: the four
  pre-activations `zi zf zo zg` of the input, forget, output and candidate gates and the old cell value `c`:
      cell  = σ(zf) · c + σ(zi) · tanh(zg)        hidden = σ(zo) · tanh(cell)
  with σ the logistic function. The result array has 2048 columns: the new hidden state in columns 0 … 1023 and the
  new cell state in columns 1024 … 2047 (`laidOut`).

  A gate's pre-activation at row `r`, column `j` is
      Σ_k x[r,k] · W[k,j]  +  Σ_k h[r,k] · W[1024+k,j]  +  b[0,j]  +  b[0,1024+j]
  where `h` is the left half of `hidden_state`. The two programs group the four summands differently (`preact` is
  one grouping, `regroup` the law between the two); on the extended reals addition is still commutative and
  associative, so the grouping does not matter and no finiteness is needed.

  The fused program stacks the four gates' columns side by side: column `n · 1024 + j` of a 4096-column array is
  column `j` of gate `n` (`col`).
-/
import Idealize.ShloMosaic.PureOps.Ideal
import Idealize.ShloMosaic.Lib.ValueIdx

noncomputable section

namespace Cert.Lstm

open Idealize.ShloMosaic Idealize.ShloMosaic.ValueIdx
open scoped BigOperators

/-- An `a × b` array of extended reals. -/
abbrev Arr (a b : Nat) : Type := (⟨2, ![a, b]⟩ : Shape).Idx → EReal

/-- Row or column `k` of the top (left) half, and of the bottom (right) half, of a 2048-long axis. -/
def lo (k : Fin 1024) : Fin 2048 := ⟨k.val, by have := k.isLt; omega⟩
def hi (k : Fin 1024) : Fin 2048 := ⟨1024 + k.val, by have := k.isLt; omega⟩
@[simp] theorem lo_val (k : Fin 1024) : (lo k).val = k.val := rfl
@[simp] theorem hi_val (k : Fin 1024) : (hi k).val = 1024 + k.val := rfl

/-- Column `j` of gate `n` among the 4096 stacked columns. -/
def col (n : Fin 4) (j : Fin 1024) : Fin 4096 := ⟨n.val * 1024 + j.val, by have := n.isLt; have := j.isLt; omega⟩
@[simp] theorem col_val (n : Fin 4) (j : Fin 1024) : (col n j).val = n.val * 1024 + j.val := rfl

/-- The new cell value and the new hidden value from the four pre-activations and the old cell value. -/
def cellStep (zi zf zg c : EReal) : EReal := Ideal.logistic zf * c + Ideal.logistic zi * Ideal.tanh zg
def hiddenStep (zo cellNew : EReal) : EReal := Ideal.logistic zo * Ideal.tanh cellNew

/-- A gate's pre-activation: the input's and the old hidden state's products with the two halves of the gate's
    weight matrix, and the two halves of its bias. -/
def preact (X : Arr 8192 1024) (HC : Arr 8192 2048) (W : Arr 2048 1024) (B : Arr 1 2048) (r : Fin 8192) (j : Fin 1024) : EReal :=
  ((∑ k : Fin 1024, X (ix2 r k) * W (ix2 (lo k) j)) + ∑ k : Fin 1024, HC (ix2 r (lo k)) * W (ix2 (hi k) j))
    + (B (ix2 (0 : Fin 1) (lo j)) + B (ix2 (0 : Fin 1) (hi j)))

/-- The other grouping of the same four summands. -/
theorem regroup (a b1 c b2 : EReal) : ((a + b1) + c) + b2 = (a + c) + (b1 + b2) := by
  rw [add_assoc (a + b1) c b2, add_add_add_comm]

/-- The new cell state and the new hidden state at row `r`, column `j`, from the ten arguments. -/
def cellAt (X : Arr 8192 1024) (HC : Arr 8192 2048) (Wi Wf Wo Wg : Arr 2048 1024) (Bi Bf Bo Bg : Arr 1 2048)
    (r : Fin 8192) (j : Fin 1024) : EReal :=
  cellStep (preact X HC Wi Bi r j) (preact X HC Wf Bf r j) (preact X HC Wg Bg r j) (HC (ix2 r (hi j)))
def hiddenAt (X : Arr 8192 1024) (HC : Arr 8192 2048) (Wi Wf Wo Wg : Arr 2048 1024) (Bi Bf Bo Bg : Arr 1 2048)
    (r : Fin 8192) (j : Fin 1024) : EReal :=
  hiddenStep (preact X HC Wo Bo r j) (cellAt X HC Wi Wf Wo Wg Bi Bf Bo Bg r j)

/-- Two `8192 × 1024` tables side by side as one `8192 × 2048` array. -/
def laidOut (left right : Fin 8192 → Fin 1024 → EReal) : Arr 8192 2048 := fun i =>
  if h : (i 1).val < 1024 then left (i 0) ⟨(i 1).val, h⟩
  else right (i 0) ⟨(i 1).val - 1024, by have := idx2_lt1 i; omega⟩

theorem laidOut_lo (left right : Fin 8192 → Fin 1024 → EReal) (r : Fin 8192) (j : Fin 1024) :
    laidOut left right (ix2 r (lo j)) = left r j := by
  unfold laidOut
  rw [dif_pos (show ((ix2 r (lo j) : (⟨2, ![8192, 2048]⟩ : Shape).Idx) 1).val < 1024 from j.isLt)]
  rfl

theorem laidOut_hi (left right : Fin 8192 → Fin 1024 → EReal) (r : Fin 8192) (j : Fin 1024) :
    laidOut left right (ix2 r (hi j)) = right r j := by
  unfold laidOut
  rw [dif_neg (show ¬ ((ix2 r (hi j) : (⟨2, ![8192, 2048]⟩ : Shape).Idx) 1).val < 1024 from by
    show ¬ (1024 + j.val < 1024); omega)]
  exact congrArg (right r) (Fin.ext (by show 1024 + j.val - 1024 = j.val; omega))

/-- Every column of the 2048 is in the left half or in the right half. -/
theorem lo_or_hi (q : Fin 2048) : (∃ j, q = lo j) ∨ (∃ j, q = hi j) := by
  by_cases h : q.val < 1024
  · exact .inl ⟨⟨q.val, h⟩, Fin.ext rfl⟩
  · exact .inr ⟨⟨q.val - 1024, by have := q.isLt; omega⟩, Fin.ext (by show q.val = 1024 + (q.val - 1024); omega)⟩

/-- The result array of the LSTM step. -/
def result (X : Arr 8192 1024) (HC : Arr 8192 2048) (Wi Wf Wo Wg : Arr 2048 1024) (Bi Bf Bo Bg : Arr 1 2048) : Arr 8192 2048 :=
  laidOut (hiddenAt X HC Wi Wf Wo Wg Bi Bf Bo Bg) (cellAt X HC Wi Wf Wo Wg Bi Bf Bo Bg)

end Cert.Lstm

end
-- ==== Proof.KernelArith.lean ====
/-
  The body's arithmetic, read one entry at a time on the extended reals.

  With `x` (256 × 1024), `hc` (256 × 2048), `wx`, `wh` (1024 × 4096) and `b` (1 × 4096) the five loaded blocks, the body
  first forms the 256 × 4096 table of stacked pre-activations
      z[p, q] = Σ_k x[p,k] · wx[k,q] + Σ_k hc[p,k] · wh[k,q] + b[0,q]          (`stacked_apply`)
  — the narrowing of `x` and of the left half of `hc` is the identity here, and each matrix product into a zero
  accumulator is the plain sum over the contracted axis — and then, with the four gates read off `z` at columns
  `j`, `1024 + j`, `2048 + j`, `3072 + j` and the old cell value off the right half of `hc`, stores
      cell[p, j]   = σ(z[p,1024+j]) · hc[p,1024+j] + σ(z[p,j]) · tanh(z[p,3072+j])       (`cell_apply`)
      hidden[p, j] = σ(z[p,2048+j]) · tanh(cell[p, j])                                   (`hidden_apply`).
-/
import proofs.«143200_j50148038148717_2_alg».proof.Proof.Gen.KernelIdeal.Skeleton
import proofs.«143200_j50148038148717_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Arith

open Cert.KernelIdeal Cert.KernelIdeal.Gen Cert.Lstm
open Idealize.ShloMosaic Idealize.ShloMosaic.ValueIdx
open scoped BigOperators

/-! ## A matrix product into a zero accumulator, at an entry -/

theorem lhs_row (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

theorem rhs_col (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- Entry `(p, q)` of the product of a 256 × 1024 and a 1024 × 4096 matrix, accumulated from zero, is the sum over
    `k` of `l[p,k] · r[k,q]`. -/
theorem product_apply (l : FVec Ideal S256x1024 .bf16) (r : FVec Ideal S1024x4096 .bf16) (p : Fin 256) (q : Fin 4096) :
    matmul dot_S256x1024_S1024x4096_S256x4096_1_0_0_1_n_n none l r (constant S256x4096 .f32 0x00000000#32) (ix2 p q) = ∑ k : Fin 1024, l (ix2 p k) * r (ix2 k q) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p q) ((contrEquiv1 dot_S256x1024_S1024x4096_S256x4096_1_0_0_1_n_n 1024 rfl rfl).symm k) = ix2 p k := funext fun a => Fin.ext (by
    match a with
    | ⟨0, _⟩ => exact lhs_row _ _
    | ⟨1, _⟩ => exact (dot_S256x1024_S1024x4096_S256x4096_1_0_0_1_n_n.lhsIdx_val_of_single rfl _ _).trans hk)
  have er : dot_S256x1024_S1024x4096_S256x4096_1_0_0_1_n_n.rhsIdx (ix2 p q) ((contrEquiv1 dot_S256x1024_S1024x4096_S256x4096_1_0_0_1_n_n 1024 rfl rfl).symm k) = ix2 k q := funext fun a => Fin.ext (by
    match a with
    | ⟨0, _⟩ => exact (dot_S256x1024_S1024x4096_S256x4096_1_0_0_1_n_n.rhsIdx_val_of_single rfl _ _).trans hk
    | ⟨1, _⟩ => exact rhs_col _ _)
  rw [el, er]

/-! ## The stacked pre-activations -/

theorem stacked_apply (x : Vec Ideal S256x1024 .f32) (hc : Vec Ideal S256x2048 .f32) (wx wh : Vec Ideal S1024x4096 .bf16)
    (b : Vec Ideal S1x4096 .f32) (p : Fin 256) (q : Fin 4096) :
    k0_pay1 x hc wx wh b (ix2 p q)
      = ((∑ k : Fin 1024, x (ix2 p k) * wx (ix2 k q)) + ∑ k : Fin 1024, hc (ix2 p (lo k)) * wh (ix2 k q)) + b (ix2 (0 : Fin 1) q) := by
  unfold k0_pay1
  simp only [shapeCast_self]
  refine congrArg₂ (· + ·) (congrArg₂ (· + ·) ?_ ?_) ?_
  · exact (product_apply _ _ p q).trans (Finset.sum_congr rfl fun k _ => rfl)
  · refine (product_apply _ _ p q).trans (Finset.sum_congr rfl fun k _ => ?_)
    exact congrArg (· * wh (ix2 k q)) (slice2_axis1_apply 0 hc slices_S256x2048_o0_0_S256x1024 p k (lo k) (by simp))
  · exact broadcastTo_1b_ab_apply b _ p q

/-! ## The gates, and the two stored tables -/

/-- A sigmoid gate: columns `o … o + 1023` of the logistic of the first 3072 stacked columns. -/
theorem sigmoid_gate (z : FVec Ideal S256x4096 .f32) (o : Nat) (h3 : S256x3072.Slices ![0, o] S256x1024)
    (h4 : S256x4096.Slices ![0, 0] S256x3072) (p : Fin 256) (j : Fin 1024) (q : Fin 4096)
    (hq : q.val = o + j.val) (hlt : o + j.val < 3072) :
    extractStridedSlice S256x1024 ![0, o] (logistic (extractStridedSlice S256x3072 ![0, 0] z h4)) h3 (ix2 p j)
      = Ideal.logistic (z (ix2 p q)) := by
  refine (slice2_axis1_apply o _ h3 p j (⟨o + j.val, hlt⟩ : Fin 3072) rfl).trans ?_
  exact congrArg Ideal.logistic (slice2_axis1_apply 0 z h4 p (⟨o + j.val, hlt⟩ : Fin 3072) q (by simp [hq]))

theorem cell_apply (x : Vec Ideal S256x1024 .f32) (hc : Vec Ideal S256x2048 .f32) (wx wh : Vec Ideal S1024x4096 .bf16)
    (b : Vec Ideal S1x4096 .f32) (p : Fin 256) (j : Fin 1024) :
    k0_pay3 x hc wx wh b (ix2 p j)
      = cellStep (k0_pay1 x hc wx wh b (ix2 p (col 0 j))) (k0_pay1 x hc wx wh b (ix2 p (col 1 j)))
          (k0_pay1 x hc wx wh b (ix2 p (col 3 j))) (hc (ix2 p (hi j))) := by
  unfold k0_pay3 k0_pay2 cellStep
  refine congrArg₂ (· + ·) (congrArg₂ (· * ·) ?_ ?_) (congrArg₂ (· * ·) ?_ ?_)
  · exact sigmoid_gate _ 1024 _ _ p j (col 1 j) (by simp) (by have := j.isLt; omega)
  · exact slice2_axis1_apply 1024 hc _ p j (hi j) (by simp)
  · exact sigmoid_gate _ 0 _ _ p j (col 0 j) (by simp) (by have := j.isLt; omega)
  · exact congrArg Ideal.tanh (slice2_axis1_apply 3072 _ _ p j (col 3 j) (by simp))

theorem hidden_apply (x : Vec Ideal S256x1024 .f32) (hc : Vec Ideal S256x2048 .f32) (wx wh : Vec Ideal S1024x4096 .bf16)
    (b : Vec Ideal S1x4096 .f32) (p : Fin 256) (j : Fin 1024) :
    k0_pay4 x hc wx wh b (ix2 p j)
      = hiddenStep (k0_pay1 x hc wx wh b (ix2 p (col 2 j))) (k0_pay3 x hc wx wh b (ix2 p j)) := by
  unfold k0_pay4 k0_pay2 hiddenStep
  refine congrArg₂ (· * ·) ?_ rfl
  exact sigmoid_gate _ 2048 _ _ p j (col 2 j) (by simp) (by have := j.isLt; omega)

/-! ## The same three, when the blocks are read off the whole arrays

Let the loaded blocks be rows of the arguments: row `p` of `x` and of `hc` is row `r` of `X` and of `HC`, and the
resident blocks hold, in stacked column `n · 1024 + j`, column `j` of the top half (`wx`) and of the bottom half (`wh`)
of gate `n`'s weight matrix `W n`, and the sum of the two halves of gate `n`'s bias `B n` (`b`). Then a stacked
pre-activation is that gate's pre-activation at `(r, j)`, and the two stored tables are the LSTM step there. -/

section OfArrays

variable (X : Arr 8192 1024) (HC : Arr 8192 2048) (W : Fin 4 → Arr 2048 1024) (B : Fin 4 → Arr 1 2048)
variable (x : Vec Ideal S256x1024 .f32) (hc : Vec Ideal S256x2048 .f32) (wx wh : Vec Ideal S1024x4096 .bf16) (b : Vec Ideal S1x4096 .f32)
variable (r : Fin 8192) (p : Fin 256)

theorem stacked_is_preact (hx : ∀ k, x (ix2 p k) = X (ix2 r k)) (hhc : ∀ q, hc (ix2 p q) = HC (ix2 r q))
    (hwx : ∀ n k j, wx (ix2 k (col n j)) = W n (ix2 (lo k) j)) (hwh : ∀ n k j, wh (ix2 k (col n j)) = W n (ix2 (hi k) j))
    (hb : ∀ n j, b (ix2 (0 : Fin 1) (col n j)) = B n (ix2 (0 : Fin 1) (lo j)) + B n (ix2 (0 : Fin 1) (hi j)))
    (n : Fin 4) (j : Fin 1024) :
    k0_pay1 x hc wx wh b (ix2 p (col n j)) = preact X HC (W n) (B n) r j := by
  rw [stacked_apply]
  unfold preact
  refine congrArg₂ (· + ·) (congrArg₂ (· + ·) ?_ ?_) (hb n j)
  · exact Finset.sum_congr rfl fun k _ => by rw [hx k, hwx n k j]
  · exact Finset.sum_congr rfl fun k _ => by rw [hhc (lo k), hwh n k j]

theorem cell_is_step (hx : ∀ k, x (ix2 p k) = X (ix2 r k)) (hhc : ∀ q, hc (ix2 p q) = HC (ix2 r q))
    (hwx : ∀ n k j, wx (ix2 k (col n j)) = W n (ix2 (lo k) j)) (hwh : ∀ n k j, wh (ix2 k (col n j)) = W n (ix2 (hi k) j))
    (hb : ∀ n j, b (ix2 (0 : Fin 1) (col n j)) = B n (ix2 (0 : Fin 1) (lo j)) + B n (ix2 (0 : Fin 1) (hi j)))
    (j : Fin 1024) :
    k0_pay3 x hc wx wh b (ix2 p j) = cellAt X HC (W 0) (W 1) (W 2) (W 3) (B 0) (B 1) (B 2) (B 3) r j := by
  rw [cell_apply, stacked_is_preact X HC W B x hc wx wh b r p hx hhc hwx hwh hb 0 j,
    stacked_is_preact X HC W B x hc wx wh b r p hx hhc hwx hwh hb 1 j,
    stacked_is_preact X HC W B x hc wx wh b r p hx hhc hwx hwh hb 3 j, hhc (hi j)]
  rfl

theorem hidden_is_step (hx : ∀ k, x (ix2 p k) = X (ix2 r k)) (hhc : ∀ q, hc (ix2 p q) = HC (ix2 r q))
    (hwx : ∀ n k j, wx (ix2 k (col n j)) = W n (ix2 (lo k) j)) (hwh : ∀ n k j, wh (ix2 k (col n j)) = W n (ix2 (hi k) j))
    (hb : ∀ n j, b (ix2 (0 : Fin 1) (col n j)) = B n (ix2 (0 : Fin 1) (lo j)) + B n (ix2 (0 : Fin 1) (hi j)))
    (j : Fin 1024) :
    k0_pay4 x hc wx wh b (ix2 p j) = hiddenAt X HC (W 0) (W 1) (W 2) (W 3) (B 0) (B 1) (B 2) (B 3) r j := by
  rw [hidden_apply, cell_is_step X HC W B x hc wx wh b r p hx hhc hwx hwh hb j,
    stacked_is_preact X HC W B x hc wx wh b r p hx hhc hwx hwh hb 2 j]
  rfl

end OfArrays

end Cert.KernelIdeal.Arith

end
-- ==== Proof.KernelResident.lean ====
/-
  The three resident arrays, as the host stretch of @main leaves them, one entry at a time.

  For gate `n` (0 the input gate, 1 the forget gate, 2 the output gate, 3 the candidate) with weight matrix `W n`
  (2048 × 1024) and bias `B n` (1 × 2048), and stacked column `n · 1024 + j`:
      wx[k, n·1024 + j] = (W n)[k, j]              the top halves, side by side       (`wx_entry`)
      wh[k, n·1024 + j] = (W n)[1024 + k, j]       the bottom halves, side by side    (`wh_entry`)
      b [0, n·1024 + j] = (B n)[0, j] + (B n)[0, 1024 + j]                            (`bias_entry`)
  The narrowing of the weights to the short float format is the identity on the extended reals.
-/
import proofs.«143200_j50148038148717_2_alg».proof.Proof.KernelIdealRun
import proofs.«143200_j50148038148717_2_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Resident

open Cert.KernelIdeal Cert.KernelIdeal.Gen Cert.KernelIdeal.Lstm Cert.Lstm
open Idealize.ShloMosaic Idealize.ShloMosaic.TcCoe Idealize.ShloMosaic.ValueIdx Idealize.SL.Sem Idealize.ShloMosaic.StableHlo

/-! ## Four equal pieces side by side, read at a column of piece `n` -/

theorem side_by_side {a : Nat} (x0 x1 x2 x3 : (⟨2, ![a, 1024]⟩ : Shape).Idx → EReal)
    (h : Shape.Concatenates [(⟨2, ![a, 1024]⟩ : Shape), ⟨2, ![a, 1024]⟩, ⟨2, ![a, 1024]⟩, ⟨2, ![a, 1024]⟩] ⟨2, ![a, 4096]⟩ 1)
    (r : Fin a) (n : Fin 4) (j : Fin 1024) :
    concatenate (⟨2, ![a, 4096]⟩ : Shape) 1 [⟨(⟨2, ![a, 1024]⟩ : Shape), x0⟩, ⟨(⟨2, ![a, 1024]⟩ : Shape), x1⟩,
        ⟨(⟨2, ![a, 1024]⟩ : Shape), x2⟩, ⟨(⟨2, ![a, 1024]⟩ : Shape), x3⟩] h (ix2 r (col n j))
      = (![x0, x1, x2, x3] n) (ix2 r j) := by
  have hoff : ∀ (q : Fin 4096) (b : Fin (⟨2, ![a, 1024]⟩ : Shape).rank),
      b.cast (rfl : (⟨2, ![a, 1024]⟩ : Shape).rank = (⟨2, ![a, 4096]⟩ : Shape).rank) ≠ (1 : Fin 2) →
      ((ix2 r j : (⟨2, ![a, 1024]⟩ : Shape).Idx) b).val = ((ix2 r q : (⟨2, ![a, 4096]⟩ : Shape).Idx) (b.cast rfl)).val := by
    intro q b hb
    match b with
    | ⟨0, _⟩ => rfl
    | ⟨1, _⟩ => exact absurd rfl hb
  match n with
  | ⟨0, _⟩ => exact concatenate_apply_piece (t := (⟨2, ![a, 4096]⟩ : Shape)) (1 : Fin 2) [⟨(⟨2, ![a, 1024]⟩ : Shape), x0⟩, ⟨(⟨2, ![a, 1024]⟩ : Shape), x1⟩, ⟨(⟨2, ![a, 1024]⟩ : Shape), x2⟩, ⟨(⟨2, ![a, 1024]⟩ : Shape), x3⟩] h _ 0 (by simp) (⟨2, ![a, 1024]⟩ : Shape) x0 rfl rfl 0 rfl (ix2 r j) (hoff _) rfl
  | ⟨1, _⟩ => exact concatenate_apply_piece (t := (⟨2, ![a, 4096]⟩ : Shape)) (1 : Fin 2) [⟨(⟨2, ![a, 1024]⟩ : Shape), x0⟩, ⟨(⟨2, ![a, 1024]⟩ : Shape), x1⟩, ⟨(⟨2, ![a, 1024]⟩ : Shape), x2⟩, ⟨(⟨2, ![a, 1024]⟩ : Shape), x3⟩] h _ 1 (by simp) (⟨2, ![a, 1024]⟩ : Shape) x1 rfl rfl 1024 rfl (ix2 r j) (hoff _) rfl
  | ⟨2, _⟩ => exact concatenate_apply_piece (t := (⟨2, ![a, 4096]⟩ : Shape)) (1 : Fin 2) [⟨(⟨2, ![a, 1024]⟩ : Shape), x0⟩, ⟨(⟨2, ![a, 1024]⟩ : Shape), x1⟩, ⟨(⟨2, ![a, 1024]⟩ : Shape), x2⟩, ⟨(⟨2, ![a, 1024]⟩ : Shape), x3⟩] h _ 2 (by simp) (⟨2, ![a, 1024]⟩ : Shape) x2 rfl rfl 2048 rfl (ix2 r j) (hoff _) rfl
  | ⟨3, _⟩ => exact concatenate_apply_piece (t := (⟨2, ![a, 4096]⟩ : Shape)) (1 : Fin 2) [⟨(⟨2, ![a, 1024]⟩ : Shape), x0⟩, ⟨(⟨2, ![a, 1024]⟩ : Shape), x1⟩, ⟨(⟨2, ![a, 1024]⟩ : Shape), x2⟩, ⟨(⟨2, ![a, 1024]⟩ : Shape), x3⟩] h _ 3 (by simp) (⟨2, ![a, 1024]⟩ : Shape) x3 rfl rfl 3072 rfl (ix2 r j) (hoff _) rfl

variable (m : (ℓ : Loc nD τ sig) → Buf (Elt Ideal) ℓ)

/-- The four weight matrices and the four biases as launched, in gate order: input, forget, output, candidate. -/
def weights (c : Dev nD) : Fin 4 → Arr 2048 1024 :=
  ![m ((c : Thread nD τ).loc main_arg2), m ((c : Thread nD τ).loc main_arg3), m ((c : Thread nD τ).loc main_arg4), m ((c : Thread nD τ).loc main_arg5)]
def biases (c : Dev nD) : Fin 4 → Arr 1 2048 :=
  ![m ((c : Thread nD τ).loc main_arg6), m ((c : Thread nD τ).loc main_arg7), m ((c : Thread nD τ).loc main_arg8), m ((c : Thread nD τ).loc main_arg9)]

/-! ## The host operations' composed terms -/

/-- The top half of a weight matrix, narrowed; the bottom half, narrowed; a bias folded. -/
def topOf (w : Arr 2048 1024) : (⟨2, ![1024, 1024]⟩ : Shape).Idx → EReal :=
  truncf (F := Ideal) .bf16 (extractStridedSlice S1024x1024 ![0, 0] w slices_S2048x1024_S1024x1024_0_0) bitsLt_bf16_f32
def bottomOf (w : Arr 2048 1024) : (⟨2, ![1024, 1024]⟩ : Shape).Idx → EReal :=
  truncf (F := Ideal) .bf16 (extractStridedSlice S1024x1024 ![1024, 0] w slices_S2048x1024_S1024x1024_1024_0) bitsLt_bf16_f32
def foldOf (b : Arr 1 2048) : (⟨2, ![1, 1024]⟩ : Shape).Idx → EReal :=
  addf (F := Ideal) (φ := .f32) (extractStridedSlice S1x1024 ![0, 0] b slices_S1x2048_S1x1024_0_0) (extractStridedSlice S1x1024 ![0, 1024] b slices_S1x2048_S1x1024_0_1024)

theorem topOf_apply (w : Arr 2048 1024) (k j : Fin 1024) : topOf w (ix2 k j) = w (ix2 (lo k) j) :=
  slice2_axis0_apply 0 w slices_S2048x1024_S1024x1024_0_0 k j (lo k) (by simp)
theorem bottomOf_apply (w : Arr 2048 1024) (k j : Fin 1024) : bottomOf w (ix2 k j) = w (ix2 (hi k) j) :=
  slice2_axis0_apply 1024 w slices_S2048x1024_S1024x1024_1024_0 k j (hi k) (by simp)
theorem foldOf_apply (b : Arr 1 2048) (j : Fin 1024) :
    foldOf b (ix2 (0 : Fin 1) j) = b (ix2 (0 : Fin 1) (lo j)) + b (ix2 (0 : Fin 1) (hi j)) :=
  congrArg₂ (· + ·) (slice2_axis1_apply 0 b slices_S1x2048_S1x1024_0_0 (0 : Fin 1) j (lo j) (by simp))
    (slice2_axis1_apply 1024 b slices_S1x2048_S1x1024_0_1024 (0 : Fin 1) j (hi j) (by simp))

theorem wx_term (c : Dev nD) : (entry m c main_v28 : S1024x4096.Idx → EReal)
    = concatenate S1024x4096 1 [⟨S1024x1024, topOf (weights m c 0)⟩, ⟨S1024x1024, topOf (weights m c 1)⟩,
        ⟨S1024x1024, topOf (weights m c 2)⟩, ⟨S1024x1024, topOf (weights m c 3)⟩]
        concatenates_S1024x1024_S1024x1024_S1024x1024_S1024x1024_S1024x4096_d1 := by
  dsimp only [entry, hostOps0]; after_results; rfl

theorem wh_term (c : Dev nD) : (entry m c main_v29 : S1024x4096.Idx → EReal)
    = concatenate S1024x4096 1 [⟨S1024x1024, bottomOf (weights m c 0)⟩, ⟨S1024x1024, bottomOf (weights m c 1)⟩,
        ⟨S1024x1024, bottomOf (weights m c 2)⟩, ⟨S1024x1024, bottomOf (weights m c 3)⟩]
        concatenates_S1024x1024_S1024x1024_S1024x1024_S1024x1024_S1024x4096_d1 := by
  dsimp only [entry, hostOps0]; after_results; rfl

theorem bias_term (c : Dev nD) : (entry m c main_v30 : S1x4096.Idx → EReal)
    = concatenate S1x4096 1 [⟨S1x1024, foldOf (biases m c 0)⟩, ⟨S1x1024, foldOf (biases m c 1)⟩,
        ⟨S1x1024, foldOf (biases m c 2)⟩, ⟨S1x1024, foldOf (biases m c 3)⟩]
        concatenates_S1x1024_S1x1024_S1x1024_S1x1024_S1x4096_d1 := by
  dsimp only [entry, hostOps0]; after_results; rfl

/-! ## Entry by entry -/

theorem wx_entry (c : Dev nD) (n : Fin 4) (k j : Fin 1024) :
    (entry m c main_v28 : S1024x4096.Idx → EReal) (ix2 k (col n j)) = weights m c n (ix2 (lo k) j) := by
  rw [wx_term, side_by_side]
  match n with
  | ⟨0, _⟩ => exact topOf_apply _ k j
  | ⟨1, _⟩ => exact topOf_apply _ k j
  | ⟨2, _⟩ => exact topOf_apply _ k j
  | ⟨3, _⟩ => exact topOf_apply _ k j

theorem wh_entry (c : Dev nD) (n : Fin 4) (k j : Fin 1024) :
    (entry m c main_v29 : S1024x4096.Idx → EReal) (ix2 k (col n j)) = weights m c n (ix2 (hi k) j) := by
  rw [wh_term, side_by_side]
  match n with
  | ⟨0, _⟩ => exact bottomOf_apply _ k j
  | ⟨1, _⟩ => exact bottomOf_apply _ k j
  | ⟨2, _⟩ => exact bottomOf_apply _ k j
  | ⟨3, _⟩ => exact bottomOf_apply _ k j

theorem bias_entry (c : Dev nD) (n : Fin 4) (j : Fin 1024) :
    (entry m c main_v30 : S1x4096.Idx → EReal) (ix2 (0 : Fin 1) (col n j))
      = biases m c n (ix2 (0 : Fin 1) (lo j)) + biases m c n (ix2 (0 : Fin 1) (hi j)) := by
  rw [bias_term, side_by_side]
  match n with
  | ⟨0, _⟩ => exact foldOf_apply _ j
  | ⟨1, _⟩ => exact foldOf_apply _ j
  | ⟨2, _⟩ => exact foldOf_apply _ j
  | ⟨3, _⟩ => exact foldOf_apply _ j

end Cert.KernelIdeal.Resident

end
-- ==== Proof.KernelWhole.lean ====
/-
  What the idealized kernel's run leaves in the result array: the LSTM step of `Spec.lean` of the ten arguments.

  Grid point `t` stages rows `256 t … 256 t + 255` of `x` and of `hidden_state`, and the three resident arrays whole
  (their block index is `(0, 0)` at every point); it writes back rows `256 t … 256 t + 255` of the result, all 2048
  columns. At row `p` of the block, the left half of what the body stored is the new hidden state and the right half
  the new cell state at row `256 t + p` of the batch (`point`), because the stacked pre-activations the body forms
  from the resident arrays are the four gates' pre-activations (`KernelArith.lean`, `KernelResident.lean`). The 32
  blocks tile the 8192 rows (the point covering row `r` is `r / 256`), so the result array is the LSTM step
  everywhere (`final`), and the run is re-stated with that array named (`run`).
-/
import proofs.«143200_j50148038148717_2_alg».proof.Proof.KernelIdealRun
import proofs.«143200_j50148038148717_2_alg».proof.Proof.KernelArith
import proofs.«143200_j50148038148717_2_alg».proof.Proof.KernelResident
import proofs.«143200_j50148038148717_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Lstm Cert.KernelIdeal.Arith Cert.KernelIdeal.Resident Cert.Lstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The LSTM step of the ten arguments as launched. -/
def expected (c : Dev nD) : Arr 8192 2048 :=
  result (m ((c : Thread nD τ).loc main_arg0)) (m ((c : Thread nD τ).loc main_arg1))
    (weights m c 0) (weights m c 1) (weights m c 2) (weights m c 3) (biases m c 0) (biases m c 1) (biases m c 2) (biases m c 3)

/-! ## What the body stored, half by half -/

theorem origin : (![0, 0] : Fin 2 → Nat) = fun _ => 0 := funext fun a => by fin_cases a <;> rfl

/-- Two 256 × 1024 tables side by side as one 256 × 2048 block. -/
def sideBySide (L R : Vec Ideal S256x1024 .f32) : Vec Ideal S256x2048 .f32 := fun y =>
  if h : (y 1).val < 1024 then L (ix2 (y 0) ⟨(y 1).val, h⟩)
  else R (ix2 (y 0) ⟨(y 1).val - 1024, by have := idx2_lt1 y; omega⟩)

/-- What the body stored is its two payloads side by side: each store's payload is the part of `sideBySide` under its
    rectangle, and the two rectangles cover the block. -/
theorem stored_eq (x : Vec Ideal S256x1024 .f32) (hc : Vec Ideal S256x2048 .f32) (wx wh : Vec Ideal S1024x4096 .bf16)
    (b : Vec Ideal S1x4096 .f32) (y : S256x2048.Idx) :
    stored x hc wx wh b y = sideBySide (k0_pay4 x hc wx wh b) (k0_pay3 x hc wx wh b) y := by
  unfold stored
  simp only [View.ld_unit_zero (S := S256x1024) origin, View.ld_unit_zero (S := S256x2048) origin,
    View.ld_unit_zero (S := S1024x4096) origin, View.ld_unit_zero (S := S1x4096) origin]
  refine View.canon_apply_of_pieces (Val := Elt Ideal) (sideBySide (k0_pay4 x hc wx wh b) (k0_pay3 x hc wx wh b)) _ ?_ y (halves_cover _ _ y)
  intro pc hpc
  simp only [List.mem_cons, List.not_mem_nil, or_false] at hpc
  rcases hpc with rfl | rfl
  · intro z
    show k0_pay3 x hc wx wh b z = sideBySide (k0_pay4 x hc wx wh b) (k0_pay3 x hc wx wh b) (rightHalf.emb z)
    unfold sideBySide
    rw [dif_neg (show ¬ ((rightHalf.emb z) 1).val < 1024 from by show ¬ (1024 + 1 * (z 1).val < 1024); omega)]
    refine congrArg (k0_pay3 x hc wx wh b) (funext fun a => Fin.ext ?_)
    match a with
    | ⟨0, _⟩ => show (z 0).val = 0 + 1 * (z 0).val; omega
    | ⟨1, _⟩ => show (z 1).val = 1024 + 1 * (z 1).val - 1024; omega
  · intro z
    show k0_pay4 x hc wx wh b z = sideBySide (k0_pay4 x hc wx wh b) (k0_pay3 x hc wx wh b) (leftHalf.emb z)
    unfold sideBySide
    have hz : (z 1).val < 1024 := idx2_lt1 (n0 := 256) (n1 := 1024) z
    rw [dif_pos (show ((leftHalf.emb z) 1).val < 1024 from by show 0 + 1 * (z 1).val < 1024; omega)]
    refine congrArg (k0_pay4 x hc wx wh b) (funext fun a => Fin.ext ?_)
    match a with
    | ⟨0, _⟩ => show (z 0).val = 0 + 1 * (z 0).val; omega
    | ⟨1, _⟩ => show (z 1).val = 0 + 1 * (z 1).val; omega

theorem stored_left (x : Vec Ideal S256x1024 .f32) (hc : Vec Ideal S256x2048 .f32) (wx wh : Vec Ideal S1024x4096 .bf16)
    (b : Vec Ideal S1x4096 .f32) (p : Fin 256) (j : Fin 1024) :
    stored x hc wx wh b (ix2 p (lo j)) = k0_pay4 x hc wx wh b (ix2 p j) := by
  rw [stored_eq]
  unfold sideBySide
  rw [dif_pos (show ((ix2 p (lo j) : S256x2048.Idx) 1).val < 1024 from j.isLt)]
  rfl

theorem stored_right (x : Vec Ideal S256x1024 .f32) (hc : Vec Ideal S256x2048 .f32) (wx wh : Vec Ideal S1024x4096 .bf16)
    (b : Vec Ideal S1x4096 .f32) (p : Fin 256) (j : Fin 1024) :
    stored x hc wx wh b (ix2 p (hi j)) = k0_pay3 x hc wx wh b (ix2 p j) := by
  rw [stored_eq]
  unfold sideBySide
  rw [dif_neg (show ¬ ((ix2 p (hi j) : S256x2048.Idx) 1).val < 1024 from by show ¬ (1024 + j.val < 1024); omega)]
  exact congrArg (k0_pay3 x hc wx wh b) (congrArg (ix2 p) (Fin.ext (by show 1024 + j.val - 1024 = j.val; omega)))

/-! ## The blocks, read off the arrays -/

theorem points : cfg0.N = 32 := N_0

/-- The block index of every window at every grid point: the row-blocked windows follow the point, the resident
    ones stay at the origin. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block of grid point `t` is row `256 t + p` of the batch. -/
def rowAt (t : Fin cfg0.N) (p : Fin 256) : Fin 8192 :=
  ⟨t.val * 256 + p.val, by have := t.isLt; have := points; have := p.isLt; omega⟩

theorem x_block (c : Dev nD) (t : Fin cfg0.N) (p : Fin 256) (k : Fin 1024) :
    (blockAt m c 0 t : S256x1024.Idx → EReal) (ix2 p k) = m ((c : Thread nD τ).loc main_arg0) (ix2 (rowAt t p) k) := by
  obtain ⟨e0, e1, -⟩ := block_indices t
  show entry m c main_arg0 (((cfg0.win 0).blk t).view.emb (ix2 p k)) = _
  rw [entry_arg0]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem hc_block (c : Dev nD) (t : Fin cfg0.N) (p : Fin 256) (q : Fin 2048) :
    (blockAt m c 1 t : S256x2048.Idx → EReal) (ix2 p q) = m ((c : Thread nD τ).loc main_arg1) (ix2 (rowAt t p) q) := by
  obtain ⟨-, -, e0, e1, -⟩ := block_indices t
  show entry m c main_arg1 (((cfg0.win 1).blk t).view.emb (ix2 p q)) = _
  rw [entry_arg1]
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 2048 + 1 * q.val = q.val; omega

theorem wx_block (c : Dev nD) (t : Fin cfg0.N) (k : Fin 1024) (q : Fin 4096) :
    (blockAt m c 2 t : S1024x4096.Idx → EReal) (ix2 k q) = (entry m c main_v28 : S1024x4096.Idx → EReal) (ix2 k q) := by
  obtain ⟨-, -, -, -, e0, e1, -⟩ := block_indices t
  show entry m c main_v28 (((cfg0.win 2).blk t).view.emb (ix2 k q)) = _
  refine congrArg _ (funext fun a => Fin.ext ?_)
  match a with
  | ⟨0, _⟩ => show win0_2.index t (0 : Fin 2) * 1024 + 1 * k.val = k.val; omega
  | ⟨1, _⟩ => show win0_2.index t (1 : Fin 2) * 4096 + 1 * q.val = q.val; omega

theorem wh_block (c : Dev nD) (t : Fin cfg0.N) (k : Fin 1024) (q : Fin 4096) :
    (blockAt m c 3 t : S1024x4096.Idx → EReal) (ix2 k q) = (entry m c main_v29 : S1024x4096.Idx → EReal) (ix2 k q) := by
  obtain ⟨-, -, -, -, -, -, e0, e1, -⟩ := block_indices t
  show entry m c main_v29 (((cfg0.win 3).blk t).view.emb (ix2 k q)) = _
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * q.val = q.val; omega

theorem bias_block (c : Dev nD) (t : Fin cfg0.N) (q : Fin 4096) :
    (blockAt m c 4 t : S1x4096.Idx → EReal) (ix2 (0 : Fin 1) q) = (entry m c main_v30 : S1x4096.Idx → EReal) (ix2 (0 : Fin 1) q) := by
  obtain ⟨-, -, -, -, -, -, -, -, e0, e1, -⟩ := block_indices t
  show entry m c main_v30 (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 4096 + 1 * q.val = q.val; omega

/-! ## One entry of what a point writes back -/

theorem point (c : Dev nD) (t : Fin cfg0.N) (p : Fin 256) (q : Fin 2048) :
    stored (blockAt m c 0 t) (blockAt m c 1 t) (blockAt m c 2 t) (blockAt m c 3 t) (blockAt m c 4 t) (ix2 p q)
      = expected m c (ix2 (rowAt t p) q) := by
  have hx := x_block m c t p
  have hhc := hc_block m c t p
  have hwx : ∀ n k j, (blockAt m c 2 t : S1024x4096.Idx → EReal) (ix2 k (col n j)) = weights m c n (ix2 (lo k) j) :=
    fun n k j => (wx_block m c t k (col n j)).trans (wx_entry m c n k j)
  have hwh : ∀ n k j, (blockAt m c 3 t : S1024x4096.Idx → EReal) (ix2 k (col n j)) = weights m c n (ix2 (hi k) j) :=
    fun n k j => (wh_block m c t k (col n j)).trans (wh_entry m c n k j)
  have hb : ∀ n j, (blockAt m c 4 t : S1x4096.Idx → EReal) (ix2 (0 : Fin 1) (col n j))
      = biases m c n (ix2 (0 : Fin 1) (lo j)) + biases m c n (ix2 (0 : Fin 1) (hi j)) :=
    fun n j => (bias_block m c t (col n j)).trans (bias_entry m c n j)
  unfold expected result
  rcases lo_or_hi q with ⟨j, rfl⟩ | ⟨j, rfl⟩
  · refine (stored_left (blockAt m c 0 t) (blockAt m c 1 t) (blockAt m c 2 t) (blockAt m c 3 t) (blockAt m c 4 t) p j).trans ?_
    refine (hidden_is_step (m ((c : Thread nD τ).loc main_arg0)) (m ((c : Thread nD τ).loc main_arg1)) (weights m c) (biases m c)
      (blockAt m c 0 t) (blockAt m c 1 t) (blockAt m c 2 t) (blockAt m c 3 t) (blockAt m c 4 t) (rowAt t p) p hx hhc hwx hwh hb j).trans ?_
    exact (laidOut_lo _ _ _ _).symm
  · refine (stored_right (blockAt m c 0 t) (blockAt m c 1 t) (blockAt m c 2 t) (blockAt m c 3 t) (blockAt m c 4 t) p j).trans ?_
    refine (cell_is_step (m ((c : Thread nD τ).loc main_arg0)) (m ((c : Thread nD τ).loc main_arg1)) (weights m c) (biases m c)
      (blockAt m c 0 t) (blockAt m c 1 t) (blockAt m c 2 t) (blockAt m c 3 t) (blockAt m c 4 t) (rowAt t p) p hx hhc hwx hwh hb j).trans ?_
    exact (laidOut_hi _ _ _ _).symm

/-! ## From the blocks to the array -/

/-- What point `t` writes back is block `t` of the expected array. -/
theorem flushed_eq (c : Dev nD) (t : Fin cfg0.N) :
    (pdata m 0 c).flushed 5 t = ((cfg0.win 5).blk t).view.read (Elt Ideal) (expected m c) := by
  show (cfg0.win 5).cut (grid0.coords t) ((pdata m 0 c).after 5 t) = _
  rw [after_out]
  obtain ⟨-, -, -, -, -, -, -, -, -, -, e0, e1⟩ := block_indices t
  funext y
  show stored (blockAt m c 0 t) (blockAt m c 1 t) (blockAt m c 2 t) (blockAt m c 3 t) (blockAt m c 4 t) y
    = expected m c (((cfg0.win 5).blk t).view.emb y)
  refine (congrArg (stored (blockAt m c 0 t) (blockAt m c 1 t) (blockAt m c 2 t) (blockAt m c 3 t) (blockAt m c 4 t))
    (eq_ix2 (n0 := 256) (n1 := 2048) y)).trans ((point m c t (y 0) (y 1)).trans (congrArg (expected m c) ?_))
  funext a
  apply Fin.ext
  match a with
  | ⟨0, _⟩ => show t.val * 256 + (y 0).val = win0_5.index t (0 : Fin 2) * 256 + 1 * (y 0).val; omega
  | ⟨1, _⟩ => show (y 1).val = win0_5.index t (1 : Fin 2) * 2048 + 1 * (y 1).val; omega

/-- Every entry of the result array is in the block of some point that writes back: row `r` in that of `r / 256`. -/
theorem covered (i : S8192x2048.Idx) :
    ∃ t : Fin cfg0.N, (cfg0.win 5).flush t = true ∧ i ∈ ((cfg0.win 5).blk t).view.set := by
  have hi0 : (i 0).val < 8192 := idx2_lt0 i
  have hi1 : (i 1).val < 2048 := idx2_lt1 i
  have hN := points
  let t : Fin cfg0.N := ⟨(i 0).val / 256, by omega⟩
  obtain ⟨-, -, -, -, -, -, -, -, -, -, e0, e1⟩ := block_indices t
  have e0' : win0_5.index t (0 : Fin 2) = (i 0).val / 256 := e0
  refine ⟨t, flush0_5 t, ?_⟩
  show i ∈ ((View.whole main_v31).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 2048 ≤ (i 1).val ∧ (i 1).val < win0_5.index t (1 : Fin 2) * 2048 + 2048
    omega

/-- The result array after the run. -/
theorem final (c : Dev nD) : (pdata m 0 c).arrAt 5 cfg0.N = expected m c :=
  (pdata m 0 c).arrAt_eq_of_cover 5 (expected m c) (fun t _ => flushed_eq m c t) covered

/-! ## The run, with the result named -/

theorem run : θ_run defs (onTc (τ := τ) (main (F := Ideal))) ⟨m, fun _ => 0, ρ⟩ fun r => ∀ c : Dev nD,
      r.2.mem ((c.tc : Thread nD τ).loc main_v31) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 5).trans (final m c), args_kept m (pdata m) (pdata_A m) r h c⟩)
    (run_main m ρ)

end Cert.KernelIdeal.Whole

end
-- ==== Proof.ReferenceIsLstm.lean ====
/-
  The reference program's result is the LSTM step of `Spec.lean`, entry by entry.

  Gate by gate the reference computes `x·W[:1024] + b[:, :1024] + h·W[1024:] + b[:, 1024:]` — the same four summands
  as `Cert.Lstm.preact`, grouped from the left —, the logistic function as `1 / (1 + exp(−z))`, which on the extended
  reals is the logistic function itself, and lays the new hidden state and the new cell state side by side. All four
  gates are one text with different arguments, so one gate is read and the others are that reading at other arguments.
-/
import proofs.«143200_j50148038148717_2_alg».proof.Proof.Gen.ReferenceIdeal.Read
import proofs.«143200_j50148038148717_2_alg».proof.Proof.Spec

noncomputable section

namespace Cert.ReferenceIdeal.IsLstm

open Cert.ReferenceIdeal Cert.ReferenceIdeal.Gen Cert.ReferenceIdeal.Read Cert.Lstm
open Idealize.ShloMosaic Idealize.ShloMosaic.TcCoe Idealize.ShloMosaic.ValueIdx Idealize.SL.Sem
open scoped BigOperators

/-- The float pattern of `1.0` denotes the number one. -/
theorem one_pattern : Ideal.ofBits .f32 0x3F800000#32 = 1 := by
  simp [Ideal.ofBits, Ideal.ieee, -EReal.coe_mul]; norm_num

variable (X : Arr 8192 1024) (HC : Arr 8192 2048) (W : Arr 2048 1024) (B : Arr 1 2048)

/-! ## One gate -/

/-- The gate's pre-activation as the reference computes it is `preact`. -/
theorem gate_pre (r : Fin 8192) (j : Fin 1024) :
    val_main_v12 (F := Ideal) X HC W B (ix2 r j) = preact X HC W B r j := by
  have e1 : ∀ k, lidx_main_v3 (ix2 r j) k = ix2 r k := fun k => funext fun a => Fin.ext (by
    match a with | ⟨0, _⟩ => rfl | ⟨1, _⟩ => rfl)
  have e2 : ∀ k, idx_main_v2 (ridx_main_v3 (ix2 r j) k) = ix2 (lo k) j := fun k => funext fun a => Fin.ext (by
    match a with | ⟨0, _⟩ => rfl | ⟨1, _⟩ => rfl)
  have e3 : ∀ k, idx_main_v0 (lidx_main_v8 (ix2 r j) k) = ix2 r (lo k) := fun k => funext fun a => Fin.ext (by
    match a with | ⟨0, _⟩ => rfl | ⟨1, _⟩ => rfl)
  have e4 : ∀ k, idx_main_v7 (ridx_main_v8 (ix2 r j) k) = ix2 (hi k) j := fun k => funext fun a => Fin.ext (by
    match a with | ⟨0, _⟩ => rfl | ⟨1, _⟩ => rfl)
  have e5 : idx_main_v4 (idx_main_v5 (ix2 r j)) = ix2 (0 : Fin 1) (lo j) := funext fun a => Fin.ext (by
    match a with | ⟨0, _⟩ => rfl | ⟨1, _⟩ => rfl)
  have e6 : idx_main_v10 (idx_main_v11 (ix2 r j)) = ix2 (0 : Fin 1) (hi j) := funext fun a => Fin.ext (by
    match a with | ⟨0, _⟩ => rfl | ⟨1, _⟩ => rfl)
  rw [val_main_v12_apply, val_main_v9_apply, val_main_v6_apply, val_main_v3_apply, val_main_v8_apply, val_main_v5_apply,
    val_main_v11_apply, val_main_v4_apply, val_main_v10_apply]
  simp only [val_main_v2_apply, val_main_v0_apply, val_main_v7_apply, e1, e2, e3, e4, e5, e6, Ideal.addf_def]
  unfold preact
  exact regroup _ _ _ _

/-- The gate's sigmoid as the reference computes it is the logistic function of the pre-activation. -/
theorem gate_sigmoid (i : S8192x1024.Idx) :
    val_main_v18 (F := Ideal) X HC W B i = Ideal.logistic (val_main_v12 (F := Ideal) X HC W B i) := by
  rw [val_main_v18_apply, val_main_v17_apply, val_main_v16_apply, val_main_v15_apply, val_main_v14_apply, val_main_v13_apply,
    val_main_cst_apply, val_main_cst_0_apply]
  simp only [Ideal.hostDivf_def, Ideal.addf_def, Ideal.hostUnary_exp_def, Ideal.hostNegf_def, Ideal.negf_def, Ideal.ofBits_def,
    one_pattern]
  rfl

/-! ## The new cell state and the new hidden state -/

variable (Wi Wf Wo Wg : Arr 2048 1024) (Bi Bf Bo Bg : Arr 1 2048)

theorem cell_entry (r : Fin 8192) (j : Fin 1024) :
    val_main_v50 (F := Ideal) X HC Wi Wf Wg Bi Bf Bg (ix2 r j) = cellAt X HC Wi Wf Wo Wg Bi Bf Bo Bg r j := by
  have e : idx_main_v1 (ix2 r j) = ix2 r (hi j) := funext fun a => Fin.ext (by
    match a with | ⟨0, _⟩ => rfl | ⟨1, _⟩ => rfl)
  show FloatOps.addf (F := Ideal) (φ := .f32) (FloatOps.mulf (F := Ideal) (φ := .f32) (val_main_v18 (F := Ideal) X HC Wf Bf (ix2 r j)) (val_main_v1 (F := Ideal) HC (ix2 r j)))
      (FloatOps.mulf (F := Ideal) (φ := .f32) (val_main_v18 (F := Ideal) X HC Wi Bi (ix2 r j))
        (FloatOps.hostUnary (F := Ideal) (φ := .f32) .tanh (val_main_v12 (F := Ideal) X HC Wg Bg (ix2 r j)))) = _
  rw [gate_sigmoid, gate_sigmoid, gate_pre, gate_pre, gate_pre, val_main_v1_apply, e]
  rfl

theorem hidden_entry (r : Fin 8192) (j : Fin 1024) :
    val_main_v69 (F := Ideal) X HC Wi Wf Wo Wg Bi Bf Bo Bg (ix2 r j) = hiddenAt X HC Wi Wf Wo Wg Bi Bf Bo Bg r j := by
  show FloatOps.mulf (F := Ideal) (φ := .f32) (val_main_v18 (F := Ideal) X HC Wo Bo (ix2 r j))
      (FloatOps.hostUnary (F := Ideal) (φ := .f32) .tanh (val_main_v50 (F := Ideal) X HC Wi Wf Wg Bi Bf Bg (ix2 r j))) = _
  rw [gate_sigmoid, gate_pre, cell_entry X HC Wi Wf Wo Wg Bi Bf Bo Bg]
  rfl

/-! ## The result array -/

theorem result_eq :
    val_main_v70 (F := Ideal) X HC Wi Wf Wo Wg Bi Bf Bo Bg = result X HC Wi Wf Wo Wg Bi Bf Bo Bg := by
  funext i
  obtain ⟨r, q, rfl⟩ : ∃ (r : Fin 8192) (q : Fin 2048), i = ix2 r q := ⟨i 0, i 1, eq_ix2 i⟩
  unfold val_main_v70 result
  rcases lo_or_hi q with ⟨j, rfl⟩ | ⟨j, rfl⟩
  · rw [laidOut_lo]
    refine (concatenate_pair_apply_left (t := S8192x2048) (s₁ := S8192x1024) (s₂ := S8192x1024) (1 : Fin 2) _ _ concatenates_S8192x1024_S8192x1024_S8192x2048_d1 (ix2 r (lo j)) rfl (ix2 r j) ?_).trans
      (hidden_entry X HC Wi Wf Wo Wg Bi Bf Bo Bg r j)
    intro b
    match b with
    | ⟨0, _⟩ => rfl
    | ⟨1, _⟩ => rfl
  · rw [laidOut_hi]
    refine (concatenate_pair_apply_right (t := S8192x2048) (s₁ := S8192x1024) (s₂ := S8192x1024) (1 : Fin 2) _ _ concatenates_S8192x1024_S8192x1024_S8192x2048_d1 (ix2 r (hi j)) rfl rfl (ix2 r j) ?_ ?_).trans
      (cell_entry X HC Wi Wf Wo Wg Bi Bf Bo Bg r j)
    · intro b hb
      match b with
      | ⟨0, _⟩ => rfl
      | ⟨1, _⟩ => exact absurd rfl hb
    · show j.val + 1024 = 1024 + j.val
      omega

end Cert.ReferenceIdeal.IsLstm

end
-- ==== Proof.lean ====
/-
  A fused LSTM cell kernel against its plain reference: both compute, from an input `x` (8192 × 1024), the old
  hidden and cell state `hidden_state` (8192 × 2048), four gate weight matrices (2048 × 1024) and four gate biases
  (1 × 2048), the new hidden state and the new cell state side by side (8192 × 2048):
      z_g   = x · W_g[:1024] + h · W_g[1024:] + b_g[:, :1024] + b_g[:, 1024:]        for the gates g = i, f, o, c
      cell  = σ(z_f) · c + σ(z_i) · tanh(z_c)             hidden = σ(z_o) · tanh(cell)
  The kernel stacks the four gates' weights side by side into two 1024 × 4096 matrices and the folded biases into one
  1 × 4096 row on the host, then works on 32 blocks of 256 rows with two wide matrix products per block; the
  reference computes each gate with its own two products and adds the bias halves one at a time. On the extended
  reals the narrowing of the matrix operands is the identity, a product into a zero accumulator is the plain sum, the
  logistic function and `1 / (1 + exp(−z))` are one function, and the two groupings of a gate's four summands agree
  because addition is commutative and associative there — so the two results are equal entry by entry, with no use of
  the inputs' finiteness.

  The five claims: the three programs run to the end without a fault and leave their arguments unchanged
  (`KernelRun.lean`, `KernelIdealRun.lean`, and the reference's run read back); the idealization rewrote nothing;
  and the idealized kernel's and the idealized reference's results are the same array (`KernelWhole.lean`,
  `ReferenceIsLstm.lean`, both equal to `Cert.Lstm.result` of the arguments).
-/
import proofs.«143200_j50148038148717_2_alg».proof.Defs
import proofs.«143200_j50148038148717_2_alg».proof.Proof.Gen.Kernel
import proofs.«143200_j50148038148717_2_alg».proof.Proof.Gen.KernelIdeal
import proofs.«143200_j50148038148717_2_alg».proof.Proof.Gen.ReferenceIdeal
import proofs.«143200_j50148038148717_2_alg».proof.Proof.Gen.Pre_finite_inputs
import proofs.«143200_j50148038148717_2_alg».proof.Proof.Gen.ReferenceIdeal.Run
import proofs.«143200_j50148038148717_2_alg».proof.Proof.Gen.ReferenceIdeal.Read
import proofs.«143200_j50148038148717_2_alg».proof.Proof.KernelRun
import proofs.«143200_j50148038148717_2_alg».proof.Proof.KernelIdealRun
import proofs.«143200_j50148038148717_2_alg».proof.Proof.KernelWhole
import proofs.«143200_j50148038148717_2_alg».proof.Proof.ReferenceIsLstm

noncomputable section

namespace Cert.Proof

open Idealize.ShloMosaic Idealize.SL.Sem

theorem frame_kernel : Cert.frame_Kernel := fun m ρ _ => Cert.Kernel.Lstm.frame m ρ

theorem frame_kernel_ideal : Cert.frame_KernelIdeal := fun m ρ _ => Cert.KernelIdeal.Lstm.frame m ρ

/-- The reference has no kernel: its run, read back, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the ten arguments both programs end with the LSTM step of those arguments in their
    result arrays. -/
theorem algebraic : Cert.algebraic_KernelIdeal_ReferenceIdeal := by
  intro m ρ m' ρ' _ hagree
  refine ⟨fun c => Cert.KernelIdeal.Whole.expected m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v70_eq, Cert.ReferenceIdeal.IsLstm.result_eq, a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
